-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1000 : Shape := ⟨1, ![1000]⟩
abbrev S2x500000 : Shape := ⟨2, ![2, 500000]⟩
abbrev S256x512 : Shape := ⟨2, ![256, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S512x1 .f32) (main_arg7 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x1 .f32 := Host.absf main_arg6
  let main_cst_6 : FVec F S_ .f32 := constant S_ .f32 0x7F800000#32
  let main_v20 : FVec F S512x1 .f32 := broadcastInDim S512x1 ![] bcast_S_S512x1 main_cst_6
  let main_v21 : IVec S512x1 1 := cmpf .olt main_v19 main_v20
  let main_c_7 : IVec S_ 1 := constantI S_ 1 1#1
  let main_v22 : IVec S_ 1 := (fun x v => Host.reduce IntOp.andi x v reducesTo_S512x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x256 .f32) (main_arg1 : IVec S1000 32) (main_arg2 : FVec F S100000x256 .f32) (main_arg3 : IVec S2x500000 32) (main_arg4 : FVec F S256x512 .f32) (main_arg5 : FVec F S512 .f32) (main_arg6 : FVec F S512x1 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg2
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_v13 main_v16
-- ==== Kernel.lean ====
abbrev S100000x256 : Shape := ⟨2, ![100000, 256]⟩
abbrev S1000 : Shape := ⟨1, ![1000]⟩
abbrev S2x500000 : Shape := ⟨2, ![2, 500000]⟩
abbrev S256x512 : Shape := ⟨2, ![256, 512]⟩
abbrev S512 : Shape := ⟨1, ![512]⟩
abbrev S512x1 : Shape := ⟨2, ![512, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S1x512 : Shape := ⟨2, ![1, 512]⟩
abbrev S1x1 : Shape := ⟨2, ![1, 1]⟩
abbrev S2000x256 : Shape := ⟨2, ![2000, 256]⟩
abbrev S2000x512 : Shape := ⟨2, ![2000, 512]⟩
abbrev S2000x1 : Shape := ⟨2, ![2000, 1]⟩

abbrev nBuf : Space → Nat
  | .hbm => 36
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S1000, .i32⟩
  | .hbm, ⟨2, _⟩ => ⟨S100000x256, .f32⟩
  | .hbm, ⟨3, _⟩ => ⟨S2x500000, .i32⟩
  | .hbm, ⟨4, _⟩ => ⟨S256x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x256, .f32⟩
  | .hbm, ⟨19, _⟩ => ⟨S1x500000, .i32⟩
  | .hbm, ⟨20, _⟩ => ⟨S500000, .i32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x256, .f32⟩
  | .hbm, ⟨30, _⟩ => ⟨S256x512, .bf16⟩
  | .hbm, ⟨31, _⟩ => ⟨S512x1, .bf16⟩
  | .hbm, ⟨32, _⟩ => ⟨S1x512, .f32⟩
  | .hbm, ⟨33, _⟩ => ⟨S1x1, .f32⟩
  | .hbm, ⟨34, _⟩ => ⟨S1x1, .f32⟩
  | .hbm, ⟨35, _⟩ => ⟨S_, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x512, .bf16⟩
  | .local _ .vmem, ⟨5, _⟩ => ⟨S1x512, .f32⟩
  | .local _ .vmem, ⟨6, _⟩ => ⟨S512x1, .bf16⟩
  | .local _ .vmem, ⟨7, _⟩ => ⟨S1x1, .f32⟩
  | .local _ .vmem, ⟨8, _⟩ => ⟨S1x1, .f32⟩
  | .local _ .vmem, ⟨9, _⟩ => ⟨S1x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![250], ![false]⟩

def k0_cond2 (i : grid0.Coords) : BitVec 1 :=
  let arg0 : BitVec 32 := BitVec.ofNat 32 (i 0).val
  let c249_i32 : BitVec 32 := 249#32
  let v39 : BitVec 1 := Scalar.cmpi .eq arg0 c249_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bitsLt_bf16_f32 : FTy.bits .bf16 < FTy.bits .f32
  shapeCasts_S512_S1x512 : S512.ShapeCasts S1x512
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S1x1_S2000x1 : S1x1.Broadcasts S2000x1
  reduces_S2000x1_S1 : S2000x1.Reduces [0] S1
  shapeCasts_S1x1_S_ : S1x1.ShapeCasts S_
  gather_S100000x256_S500000x1_S500000x256_1_0_n_n_0_1_1256_wf : GatherDims.WF S100000x256 S500000x1 S500000x256 [1] [0] [] [0] [] 1 ![1, 256]
  dot_S2000x256_S256x512_S2000x512_1_0_0_1_n_n_wf : DotDims.WF S2000x256 S256x512 S2000x512 [1] [0] [0] [1] [] []
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S500000x256.size a
  hwx0_0 : ∀ i : grid0.Coords, EltTy.bits .f32 = 32 ∨ (Rect.block (s := S500000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S500000x256.size a
  hwx0_1 : ∀ i : grid0.Coords, EltTy.bits .f32 = 32 ∨ (Rect.block (s := S500000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S512x1.size a
  hwx0_4 : ∀ i : grid0.Coords, EltTy.bits .bf16 = 32 ∨ (Rect.block (s := S512x1) S512x1.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_v8) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S512x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S100000x256 : Shape := ⟨2, ![100000, 256]⟩
abbrev S1000 : Shape := ⟨1, ![1000]⟩
abbrev S2x500000 : Shape := ⟨2, ![2, 500000]⟩
abbrev S256x512 : Shape := ⟨2, ![256, 512]⟩
abbrev S512 : Shape := ⟨1, ![512]⟩
abbrev S512x1 : Shape := ⟨2, ![512, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x256 : Shape := ⟨2, ![500000, 256]⟩
abbrev S500000x512 : Shape := ⟨2, ![500000, 512]⟩
abbrev S1x512 : Shape := ⟨2, ![1, 512]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1000, .i32⟩
  | .hbm, ⟨2, _⟩ => ⟨S100000x256, .f32⟩
  | .hbm, ⟨3, _⟩ => ⟨S2x500000, .i32⟩
  | .hbm, ⟨4, _⟩ => ⟨S256x512, .f32⟩
  | .hbm, ⟨5, _⟩ => ⟨S512, .f32⟩
  | .hbm, ⟨6, _⟩ => ⟨S512x1, .f32⟩
  | .hbm, ⟨7, _⟩ => ⟨S1, .f32⟩
  | .hbm, ⟨8, _⟩ => ⟨S1x500000, .i32⟩
  | .hbm, ⟨9, _⟩ => ⟨S500000, .i32⟩
  | .hbm, ⟨10, _⟩ => ⟨S_, .i32⟩
  | .hbm, ⟨11, _⟩ => ⟨S500000, .i32⟩
  | .hbm, ⟨12, _⟩ => ⟨S500000, .i1⟩
  | .hbm, ⟨13, _⟩ => ⟨S_, .i32⟩
  | .hbm, ⟨14, _⟩ => ⟨S500000, .i32⟩
  | .hbm, ⟨15, _⟩ => ⟨S500000, .i32⟩
  | .hbm, ⟨16, _⟩ => ⟨S500000, .i32⟩
  | .hbm, ⟨17, _⟩ => ⟨S500000x1, .i32⟩
  | .hbm, ⟨18, _⟩ => ⟨S500000x256, .f32⟩
  | .hbm, ⟨19, _⟩ => ⟨S1x500000, .i32⟩
  | .hbm, ⟨20, _⟩ => ⟨S500000, .i32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x256, .f32⟩
  | .hbm, ⟨30, _⟩ => ⟨S500000x256, .f32⟩
  | .hbm, ⟨31, _⟩ => ⟨S500000x512, .f32⟩
  | .hbm, ⟨32, _⟩ => ⟨S1x512, .f32⟩
  | .hbm, ⟨33, _⟩ => ⟨S500000x512, .f32⟩
  | .hbm, ⟨34, _⟩ => ⟨S500000x512, .f32⟩
  | .hbm, ⟨35, _⟩ => ⟨S_, .f32⟩
  | .hbm, ⟨36, _⟩ => ⟨S500000x512, .f32⟩
  | .hbm, ⟨37, _⟩ => ⟨S500000x512, .f32⟩
  | .hbm, ⟨38, _⟩ => ⟨S500000x1, .f32⟩
  | .hbm, ⟨39, _⟩ => ⟨S1x1, .f32⟩
  | .hbm, ⟨40, _⟩ => ⟨S500000x1, .f32⟩
  | .hbm, ⟨41, _⟩ => ⟨S500000x1, .f32⟩
  | .hbm, ⟨42, _⟩ => ⟨S500000x1, .f32⟩
  | .hbm, ⟨43, _⟩ => ⟨S500000x1, .f32⟩
  | .hbm, ⟨44, _⟩ => ⟨S_, .f32⟩
  | .hbm, ⟨45, _⟩ => ⟨S500000x1, .f32⟩
  | .hbm, ⟨46, _⟩ => ⟨S500000x1, .f32⟩
  | .hbm, ⟨47, _⟩ => ⟨S_, .f32⟩
  | .hbm, ⟨48, _⟩ => ⟨S500000x1, .f32⟩
  | .hbm, ⟨49, _⟩ => ⟨S500000x1, .f32⟩
  | .hbm, ⟨50, _⟩ => ⟨S_, .f32⟩
  | .hbm, ⟨51, _⟩ => ⟨S500000x1, .f32⟩
  | .hbm, ⟨52, _⟩ => ⟨S500000x1, .f32⟩
  | .hbm, ⟨53, _⟩ => ⟨S500000x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  bcast_S512_S1x512_1 : S512.BroadcastsInDim S1x512 (![1] : Fin 1 → Fin S1x512.rank)
  bcast_S1x512_S500000x512_0_1 : S1x512.BroadcastsInDim S500000x512 (![0, 1] : Fin 2 → Fin S500000x512.rank)
  bcast_S_S500000x512 : S_.BroadcastsInDim S500000x512 (![] : Fin 0 → Fin S500000x512.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  reducesTo_S500000x1_S_d0_1 : S500000x1.ReducesTo [0, 1] S_
  h_S_ : 0 < S_.numel
  gather_S100000x256_S500000x1_S500000x256_1_0_n_n_0_1_1256_wf : GatherDims.WF S100000x256 S500000x1 S500000x256 [1] [0] [] [0] [] 1 ![1, 256]
  dot_S500000x256_S256x512_S500000x512_1_0_0_1_n_n_wf : DotDims.WF S500000x256 S256x512 S500000x512 [1] [0] [0] [1] [] []
  dot_S500000x512_S512x1_S500000x1_1_0_0_1_n_n_wf : DotDims.WF S500000x512 S512x1 S500000x1 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def dot_S500000x256_S256x512_S500000x512_1_0_0_1_n_n : DotDims S500000x256 S256x512 S500000x512 where
  lhsContracting := [1]
  rhsContracting := [0]
  lhsNonContracting := [0]
  rhsNonContracting := [1]
  lhsBatch := []
  rhsBatch := []
  wf := dot_S500000x256_S256x512_S500000x512_1_0_0_1_n_n_wf
def dot_S500000x512_S512x1_S500000x1_1_0_0_1_n_n : DotDims S500000x512 S512x1 S500000x1 where
  lhsContracting := [1]
  rhsContracting := [0]
  lhsNonContracting := [0]
  rhsNonContracting := [1]
  lhsBatch := []
  rhsBatch := []
  wf := dot_S500000x512_S512x1_S500000x1_1_0_0_1_n_n_wf

class Facts : Prop extends Facts₀ where

variable [Facts]
-- ==== Proof.LibBlockedSum.lean ====
/-
  Blocked and padded finite sums.

  A sum over an index range of length n * b can be taken block by block: an outer sum over the n blocks and
  an inner sum over the b positions of a block, the position (j, k) standing for the index j * b + k. A sum
  over a range whose tail holds only zeros equals the sum over the range without the tail. Together: a blocked
  sum over a zero-padded range equals the plain sum over the unpadded range. A running total that starts from
  the first block and adds one block per step equals the sum of the blocks seen so far.

  Everything is stated over an arbitrary additive commutative monoid: only commutativity, associativity and the
  neutrality of zero are used, so no finiteness or distributivity hypothesis appears. The last section states
  the instance on the extended reals with a product of two zero-padded factors.
-/
import Mathlib.Algebra.BigOperators.Fin
import Mathlib.Algebra.BigOperators.Intervals
import Mathlib.Data.EReal.Operations

namespace Cert.LibBlockedSum

open Finset

variable {M : Type*} [AddCommMonoid M]

/-- A sum over n * b consecutive indices equals the sum over n blocks of the sums over the b positions
    of each block, the position k of block j being the index j * b + k. -/
theorem sum_blocks (n b : ℕ) (f : ℕ → M) :
    ∑ j : Fin n, ∑ k : Fin b, f (j.val * b + k.val) = ∑ i : Fin (n * b), f i.val := by
  rw [← Fintype.sum_prod_type']
  refine Fintype.sum_equiv finProdFinEquiv _ _ ?_
  rintro ⟨j, k⟩
  have e : (finProdFinEquiv (j, k)).val = j.val * b + k.val := by
    show k.val + b * j.val = j.val * b + k.val
    rw [Nat.mul_comm, Nat.add_comm]
  rw [e]

/-- A sum over N indices whose terms vanish from index K on equals the sum over the first K indices. -/
theorem sum_padded (K N : ℕ) (h : K ≤ N) (f : ℕ → M) (hz : ∀ i, K ≤ i → i < N → f i = 0) :
    ∑ i : Fin N, f i.val = ∑ i : Fin K, f i.val := by
  rw [Fin.sum_univ_eq_sum_range f N, Fin.sum_univ_eq_sum_range f K]
  symm
  refine Finset.sum_subset (Finset.range_subset_range.2 h) ?_
  intro i hiN hiK
  exact hz i (Nat.le_of_not_lt fun hlt => hiK (Finset.mem_range.2 hlt)) (Finset.mem_range.1 hiN)

/-- A blocked sum (n blocks of b positions) over a range whose terms vanish from index K on equals the
    plain sum over the first K indices. -/
theorem blocked_padded (n b K : ℕ) (h : K ≤ n * b) (f : ℕ → M) (hz : ∀ i, K ≤ i → i < n * b → f i = 0) :
    ∑ j : Fin n, ∑ k : Fin b, f (j.val * b + k.val) = ∑ i : Fin K, f i.val :=
  (sum_blocks n b f).trans (sum_padded K (n * b) h f hz)

/-- A running total that starts at the first block and adds the next block at every step equals, after step
    j, the sum of the blocks 0, …, j. -/
theorem acc_eq_sum (acc blk : ℕ → M) (h0 : acc 0 = blk 0) (hs : ∀ j, acc (j + 1) = acc j + blk (j + 1))
    (j : ℕ) : acc j = ∑ i : Fin (j + 1), blk i.val := by
  induction j with
  | zero => rw [h0, Fin.sum_univ_one]; rfl
  | succ j ih => rw [hs, ih, Fin.sum_univ_castSucc (fun i : Fin (j + 1 + 1) => blk i.val)]; rfl

/-- The same with the first step written as an addition to a zero total. -/
theorem acc_eq_sum_of_zero_add (acc blk : ℕ → M) (h0 : acc 0 = 0 + blk 0)
    (hs : ∀ j, acc (j + 1) = acc j + blk (j + 1)) (j : ℕ) : acc j = ∑ i : Fin (j + 1), blk i.val :=
  acc_eq_sum acc blk (h0.trans (zero_add _)) hs j

/-- The running total after step j, each block being itself a sum over b positions of a function whose
    terms vanish from index K on, with (j + 1) * b indices covered so far: the plain sum over the first K
    indices. -/
theorem acc_blocked_padded (b K : ℕ) (f : ℕ → M) (acc : ℕ → M)
    (h0 : acc 0 = ∑ k : Fin b, f (0 * b + k.val))
    (hs : ∀ j, acc (j + 1) = acc j + ∑ k : Fin b, f ((j + 1) * b + k.val))
    (j : ℕ) (h : K ≤ (j + 1) * b) (hz : ∀ i, K ≤ i → i < (j + 1) * b → f i = 0) :
    acc j = ∑ i : Fin K, f i.val := by
  rw [acc_eq_sum acc (fun j => ∑ k : Fin b, f (j * b + k.val)) h0 hs j]
  exact blocked_padded (j + 1) b K h f hz

section EReal

/-- The product of two factors that are zero from index K on is zero from index K on (on the extended
    reals 0 * 0 = 0; nothing is assumed about the factors below K). -/
theorem padded_mul_eq_zero (K : ℕ) (v c : ℕ → EReal) (i : ℕ) (h : K ≤ i) :
    (if i < K then v i else 0) * (if i < K then c i else 0) = 0 := by
  rw [if_neg (Nat.not_lt.2 h), if_neg (Nat.not_lt.2 h), mul_zero]

/-- The contraction of a zero-padded row with a zero-padded column, taken in n blocks of b, equals the
    contraction of the unpadded row and column: general extents. -/
theorem blocked_padded_dot (n b K : ℕ) (h : K ≤ n * b) (v c : ℕ → EReal) :
    ∑ j : Fin n, ∑ k : Fin b,
        (if j.val * b + k.val < K then v (j.val * b + k.val) else 0) *
          (if j.val * b + k.val < K then c (j.val * b + k.val) else 0) =
      ∑ f : Fin K, v f.val * c f.val := by
  rw [blocked_padded n b K h (fun i => (if i < K then v i else 0) * (if i < K then c i else 0))
    (fun i hK _ => padded_mul_eq_zero K v c i hK)]
  refine Finset.sum_congr rfl fun i _ => ?_
  rw [if_pos i.isLt, if_pos i.isLt]

/-- The instance with 40 blocks of 512 positions covering 20480 indices, of which the first 20000 carry data
    and the last 480 are zero padding. -/
theorem blocked_padded_dot_40_512 (v c : ℕ → EReal) :
    ∑ j : Fin 40, ∑ k : Fin 512,
        (if j.val * 512 + k.val < 20000 then v (j.val * 512 + k.val) else 0) *
          (if j.val * 512 + k.val < 20000 then c (j.val * 512 + k.val) else 0) =
      ∑ f : Fin 20000, v f.val * c f.val :=
  blocked_padded_dot 40 512 20000 (by norm_num) v c

/-- The same instance for padded functions given by name. -/
theorem blocked_padded_dot_40_512' (v c vp cp : ℕ → EReal)
    (hv : ∀ i, vp i = if i < 20000 then v i else 0) (hc : ∀ i, cp i = if i < 20000 then c i else 0) :
    ∑ j : Fin 40, ∑ k : Fin 512, vp (j.val * 512 + k.val) * cp (j.val * 512 + k.val) =
      ∑ f : Fin 20000, v f.val * c f.val := by
  rw [← blocked_padded_dot_40_512 v c]
  refine Finset.sum_congr rfl fun j _ => Finset.sum_congr rfl fun k _ => ?_
  rw [hv, hc]

end EReal

end Cert.LibBlockedSum
-- ==== Proof.LossAlgebra.lean ====
/-
  The scalar algebra of the link-prediction loss, on the extended reals.

  For a logit z the per-edge term is  log (σ z + ε)  with σ z = 1 / (1 + e^(-z)) the logistic function and ε a
  small positive constant. One side of the comparison adds up the NEGATED terms, 2000 at a time, into a running
  total that starts from zero, and divides the last total by the number of edges N = 500000; the other side adds
  up the terms themselves, divides by N and negates the quotient. On the extended reals a sum may be negated term
  by term only if no two of its terms are infinities of opposite sign. That is the case here because no term is
  +∞: σ takes values in [0, 1] at every extended real (0 at -∞, 1 at +∞), ε is a real number, and the logarithm of
  an extended real other than +∞ is not +∞. No hypothesis on the logits is needed.
-/
import Idealize.ShloMosaic.PureOps.Ideal
import Idealize.ShloMosaic.PureOps.Ideal.Laws
import Idealize.ShloMosaic.Lib.IdealHost
import proofs.«119741_j66924180407021_1_alg».proof.Proof.LibBlockedSum

noncomputable section

namespace Cert.LinkLoss

open Idealize.ShloMosaic

/-- The smoothing constant ε (the single-precision number nearest 1e-15). -/
abbrev eps : EReal := Ideal.ofBits .f32 0x26901D7D#32

/-- The number of edges N as a single-precision number. -/
abbrev cnt : EReal := Ideal.ofBits .f32 0x48F42400#32

/-- The per-edge term of a logit: log (σ z + ε). -/
def term (z : EReal) : EReal := Ideal.log (Ideal.logistic z + eps)

/-- N is the real number 500000. -/
theorem cnt_eq : cnt = ((500000 : ℝ) : EReal) := by
  simp [cnt, Ideal.ofBits, Ideal.ieee, -EReal.coe_mul]; norm_num

/-- ε is a real number, so it is not +∞. -/
theorem eps_ne_top : eps ≠ ⊤ := by
  simp [eps, Ideal.ofBits, Ideal.ieee, -EReal.coe_mul]

/-- The logistic function is never +∞: it is 0 at -∞, 1 at +∞ and a real number in between. -/
theorem logistic_ne_top (z : EReal) : Ideal.logistic z ≠ ⊤ := by
  induction z using EReal.rec with
  | bot => rw [Ideal.logistic_bot]; exact EReal.zero_ne_top
  | top => rw [Ideal.logistic_top]; exact EReal.coe_ne_top 1
  | coe r => rw [Ideal.logistic_coe]; exact EReal.coe_ne_top _

/-- The logarithm of an extended real other than +∞ is not +∞. -/
theorem log_ne_top {y : EReal} (h : y ≠ ⊤) : Ideal.log y ≠ ⊤ := by
  induction y using EReal.rec with
  | bot => rw [Ideal.log_bot]; exact bot_ne_top
  | top => exact absurd rfl h
  | coe r =>
    rw [Ideal.log_coe]
    split
    · exact bot_ne_top
    · exact EReal.coe_ne_top _

/-- So no per-edge term is +∞, whatever the logit. -/
theorem term_ne_top (z : EReal) : term z ≠ ⊤ :=
  log_ne_top (EReal.add_ne_top (logistic_ne_top z) eps_ne_top)

/-- A finite sum of extended reals none of which is +∞: the sum of the differences 0 - x is the negated sum,
    and the sum is not +∞ either. -/
theorem sum_zero_sub {ι : Type*} (s : Finset ι) (f : ι → EReal) (h : ∀ i ∈ s, f i ≠ ⊤) :
    (∑ i ∈ s, (0 - f i)) = -(∑ i ∈ s, f i) ∧ (∑ i ∈ s, f i) ≠ ⊤ := by
  classical
  induction s using Finset.induction_on with
  | empty => simp
  | insert a s ha ih =>
    have h1 := ih (fun i hi => h i (Finset.mem_insert_of_mem hi))
    have ha' := h a (Finset.mem_insert_self a s)
    rw [Finset.sum_insert ha, Finset.sum_insert ha, h1.1]
    refine ⟨?_, EReal.add_ne_top ha' h1.2⟩
    rw [EReal.neg_add (Or.inr h1.2) (Or.inl ha'), sub_eq_add_neg, sub_eq_add_neg, zero_add]

/-- The running total over blocks of 2000 consecutive indices: it starts as zero plus the first block's sum and
    adds the next block's sum at every step. -/
def accum (f : ℕ → EReal) : ℕ → EReal
  | 0 => 0 + ∑ p : Fin 2000, f (0 * 2000 + p.val)
  | n + 1 => accum f n + ∑ p : Fin 2000, f ((n + 1) * 2000 + p.val)

/-- After the 250th block the running total is the sum over all 500000 indices. -/
theorem accum_last (f : ℕ → EReal) : accum f 249 = ∑ i : Fin 500000, f i.val := by
  rw [Cert.LibBlockedSum.acc_eq_sum_of_zero_add (accum f) (fun j => ∑ p : Fin 2000, f (j * 2000 + p.val))
    rfl (fun _ => rfl) 249]
  exact Cert.LibBlockedSum.sum_blocks 250 2000 f

/-- THE LAW that joins the two sides: the mean of the negated terms, accumulated block by block from zero, is
    the negated mean of the terms — provided no term is +∞. -/
theorem mean_neg (L : ℕ → EReal) (hL : ∀ e, L e ≠ ⊤) :
    Ideal.div (accum (fun e => 0 - L e) 249) cnt = -(Ideal.div (0 + ∑ e : Fin 500000, L e.val) cnt) := by
  rw [accum_last, zero_add, cnt_eq, Ideal.div_coe (by norm_num : (500000 : ℝ) ≠ 0),
    Ideal.div_coe (by norm_num : (500000 : ℝ) ≠ 0),
    (sum_zero_sub Finset.univ (fun e : Fin 500000 => L e.val) (fun e _ => hL e.val)).1, EReal.neg_mul]

end Cert.LinkLoss

end
-- ==== Proof.LossSpec.lean ====
/-
  The link-prediction loss as ONE function of the arrays, on the extended reals.

  A, B : [500000, 256]   the two endpoint embeddings of every edge
  W1 : [256, 512], b1 : [512], W2 : [512, 1], b2 : [1]   the two layers of the predictor

  For edge e:   h(e, k) = max (Σ_d (A(e,d) · B(e,d)) · W1(d,k) + b1(k)) 0
                z(e)    = Σ_k h(e,k) · W2(k,0) + b2(0)
  and the loss is  -( (0 + Σ_e log (σ (z e) + ε)) / N ).
-/
import Idealize.ShloMosaic.Lib.ValueIdx
import proofs.«119741_j66924180407021_1_alg».proof.Proof.LossAlgebra

noncomputable section

namespace Cert.LinkLoss

open Idealize.ShloMosaic Idealize.ShloMosaic.ValueIdx

/-- The hidden activation of edge `e` at unit `k`. -/
def hidden (A B : (⟨2, ![500000, 256]⟩ : Shape).Idx → EReal) (W1 : (⟨2, ![256, 512]⟩ : Shape).Idx → EReal)
    (b1 : (⟨1, ![512]⟩ : Shape).Idx → EReal) (e : Fin 500000) (k : Fin 512) : EReal :=
  max ((∑ d : Fin 256, (A (ix2 e d) * B (ix2 e d)) * W1 (ix2 d k)) + b1 (ix1 k)) 0

/-- The logit of edge `e`. -/
def logit (A B : (⟨2, ![500000, 256]⟩ : Shape).Idx → EReal) (W1 : (⟨2, ![256, 512]⟩ : Shape).Idx → EReal)
    (b1 : (⟨1, ![512]⟩ : Shape).Idx → EReal) (W2 : (⟨2, ![512, 1]⟩ : Shape).Idx → EReal)
    (b2 : (⟨1, ![1]⟩ : Shape).Idx → EReal) (e : Fin 500000) : EReal :=
  (∑ k : Fin 512, hidden A B W1 b1 e k * W2 (ix2 k (0 : Fin 1))) + b2 (ix1 (0 : Fin 1))

/-- The per-edge terms as a function of a natural number (zero outside the edge range). -/
def termAt (A B : (⟨2, ![500000, 256]⟩ : Shape).Idx → EReal) (W1 : (⟨2, ![256, 512]⟩ : Shape).Idx → EReal)
    (b1 : (⟨1, ![512]⟩ : Shape).Idx → EReal) (W2 : (⟨2, ![512, 1]⟩ : Shape).Idx → EReal)
    (b2 : (⟨1, ![1]⟩ : Shape).Idx → EReal) (e : ℕ) : EReal :=
  if h : e < 500000 then term (logit A B W1 b1 W2 b2 ⟨e, h⟩) else 0

theorem termAt_ne_top (A B : (⟨2, ![500000, 256]⟩ : Shape).Idx → EReal) (W1 : (⟨2, ![256, 512]⟩ : Shape).Idx → EReal)
    (b1 : (⟨1, ![512]⟩ : Shape).Idx → EReal) (W2 : (⟨2, ![512, 1]⟩ : Shape).Idx → EReal)
    (b2 : (⟨1, ![1]⟩ : Shape).Idx → EReal) (e : ℕ) : termAt A B W1 b1 W2 b2 e ≠ ⊤ := by
  unfold termAt
  split
  · exact term_ne_top _
  · exact EReal.zero_ne_top

theorem termAt_val (A B : (⟨2, ![500000, 256]⟩ : Shape).Idx → EReal) (W1 : (⟨2, ![256, 512]⟩ : Shape).Idx → EReal)
    (b1 : (⟨1, ![512]⟩ : Shape).Idx → EReal) (W2 : (⟨2, ![512, 1]⟩ : Shape).Idx → EReal)
    (b2 : (⟨1, ![1]⟩ : Shape).Idx → EReal) (e : Fin 500000) :
    termAt A B W1 b1 W2 b2 e.val = term (logit A B W1 b1 W2 b2 e) := by
  unfold termAt
  rw [dif_pos e.isLt]

/-- The loss: the negated mean of the per-edge terms, the sum started from zero. -/
def loss (A B : (⟨2, ![500000, 256]⟩ : Shape).Idx → EReal) (W1 : (⟨2, ![256, 512]⟩ : Shape).Idx → EReal)
    (b1 : (⟨1, ![512]⟩ : Shape).Idx → EReal) (W2 : (⟨2, ![512, 1]⟩ : Shape).Idx → EReal)
    (b2 : (⟨1, ![1]⟩ : Shape).Idx → EReal) : EReal :=
  -(Ideal.div (0 + ∑ e : Fin 500000, term (logit A B W1 b1 W2 b2 e)) cnt)

/-- The same loss from the other side: the running total of the negated terms over 250 blocks of 2000 edges,
    divided by N. -/
theorem blocked_loss (A B : (⟨2, ![500000, 256]⟩ : Shape).Idx → EReal) (W1 : (⟨2, ![256, 512]⟩ : Shape).Idx → EReal)
    (b1 : (⟨1, ![512]⟩ : Shape).Idx → EReal) (W2 : (⟨2, ![512, 1]⟩ : Shape).Idx → EReal)
    (b2 : (⟨1, ![1]⟩ : Shape).Idx → EReal) :
    Ideal.div (accum (fun e => 0 - termAt A B W1 b1 W2 b2 e) 249) cnt = loss A B W1 b1 W2 b2 := by
  rw [mean_neg _ (termAt_ne_top A B W1 b1 W2 b2)]
  unfold loss
  simp only [termAt_val]

end Cert.LinkLoss

end
-- ==== Proof.KernelBlock.lean ====
/-
  One grid step of the kernel, as arithmetic on the extended reals.

  At a grid step the body holds a block of 2000 edges: the two [2000, 256] blocks of endpoint embeddings and the
  whole weight arrays. For row p of the block it forms the hidden activations
      h(p, k) = max (Σ_d (x0(p,d) · x1(p,d)) · w1(d,k) + bb1(0,k)) 0,
  the logit  z(p) = Σ_k h(p,k) · w2(k,0) + bb2(0,0),  the negated term  0 - log (σ (z p) + ε),  and adds the sum of
  the 2000 negated terms to the running total it carries from the step before. The changes of float format on the
  way into the two block products are the identity on the extended reals. The first step starts from a total it has
  just set to zero; the last step also divides the total by the number of edges.
-/
import proofs.«119741_j66924180407021_1_alg».proof.Proof.Gen.KernelIdeal.Skeleton
import proofs.«119741_j66924180407021_1_alg».proof.Proof.LossSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.LinkLoss

/-- The hidden activation of row `p` of a block at unit `k`. -/
def blkHidden (x0 x1 : FVec Ideal S2000x256 .f32) (w1 : FVec Ideal S256x512 .bf16) (bb1 : FVec Ideal S1x512 .f32)
    (p : Fin 2000) (k : Fin 512) : EReal :=
  max ((∑ d : Fin 256, (x0 (ix2 p d) * x1 (ix2 p d)) * w1 (ix2 d k)) + bb1 (ix2 (0 : Fin 1) k)) 0

/-- The logit of row `p` of a block. -/
def blkLogit (x0 x1 : FVec Ideal S2000x256 .f32) (w1 : FVec Ideal S256x512 .bf16) (bb1 : FVec Ideal S1x512 .f32)
    (w2 : FVec Ideal S512x1 .bf16) (bb2 : FVec Ideal S1x1 .f32) (p : Fin 2000) : EReal :=
  (∑ k : Fin 512, blkHidden x0 x1 w1 bb1 p k * w2 (ix2 k (0 : Fin 1))) + bb2 (ix2 (0 : Fin 1) (0 : Fin 1))

theorem mm1_lhs0 (i : S2000x512.Idx) (q : dot_S2000x256_S256x512_S2000x512_1_0_0_1_n_n.contr.Idx) : (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem mm1_rhs1 (i : S2000x512.Idx) (q : dot_S2000x256_S256x512_S2000x512_1_0_0_1_n_n.contr.Idx) : (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- The block product into a zero accumulator, read at (p, c): the sum over the contracted coordinate. -/
theorem mm1_apply (l : FVec Ideal S2000x256 .bf16) (r : FVec Ideal S256x512 .bf16) (p : Fin 2000) (c : Fin 512) :
    matmul dot_S2000x256_S256x512_S2000x512_1_0_0_1_n_n none l r (constant (F := Ideal) S2000x512 .f32 0x00000000#32) (ix2 p c)
      = ∑ d : Fin 256, l (ix2 p d) * r (ix2 d c) := by
  simp only [matmul]
  rw [Ideal.matmul_constant_zero_apply, ← Equiv.sum_comp (ValueIdx.contrEquiv1 dot_S2000x256_S256x512_S2000x512_1_0_0_1_n_n 256 rfl rfl).symm]
  refine Finset.sum_congr rfl fun d _ => ?_
  have hk := ValueIdx.contrEquiv1_symm_val dot_S2000x256_S256x512_S2000x512_1_0_0_1_n_n 256 rfl rfl d
  have el : dot_S2000x256_S256x512_S2000x512_1_0_0_1_n_n.lhsIdx (ix2 p c) ((ValueIdx.contrEquiv1 dot_S2000x256_S256x512_S2000x512_1_0_0_1_n_n 256 rfl rfl).symm d) = ix2 p d := funext fun a => Fin.ext (by
    match a with
    | ⟨0, _⟩ => exact mm1_lhs0 _ _
    | ⟨1, _⟩ => exact (dot_S2000x256_S256x512_S2000x512_1_0_0_1_n_n.lhsIdx_val_of_single rfl _ _).trans hk)
  have er : dot_S2000x256_S256x512_S2000x512_1_0_0_1_n_n.rhsIdx (ix2 p c) ((ValueIdx.contrEquiv1 dot_S2000x256_S256x512_S2000x512_1_0_0_1_n_n 256 rfl rfl).symm d) = ix2 d c := funext fun a => Fin.ext (by
    match a with
    | ⟨0, _⟩ => exact (dot_S2000x256_S256x512_S2000x512_1_0_0_1_n_n.rhsIdx_val_of_single rfl _ _).trans hk
    | ⟨1, _⟩ => exact mm1_rhs1 _ _)
  rw [el, er]

theorem mm2_lhs0 (i : S2000x1.Idx) (q : dot_S2000x512_S512x1_S2000x1_1_0_0_1_n_n.contr.Idx) : (dot_S2000x512_S512x1_S2000x1_1_0_0_1_n_n.lhsIdx i q 0).val = (i 0).val := by
  unfold DotDims.lhsIdx
  rw [dif_neg (show ¬(0 : Fin S2000x512.rank) ∈ dot_S2000x512_S512x1_S2000x1_1_0_0_1_n_n.lhsBatch by decide), dif_pos (show (0 : Fin S2000x512.rank) ∈ dot_S2000x512_S512x1_S2000x1_1_0_0_1_n_n.lhsNonContracting by decide)]
  rfl
theorem mm2_rhs1 (i : S2000x1.Idx) (q : dot_S2000x512_S512x1_S2000x1_1_0_0_1_n_n.contr.Idx) : (dot_S2000x512_S512x1_S2000x1_1_0_0_1_n_n.rhsIdx i q 1).val = (i 1).val := by
  unfold DotDims.rhsIdx
  rw [dif_neg (show ¬(1 : Fin S512x1.rank) ∈ dot_S2000x512_S512x1_S2000x1_1_0_0_1_n_n.rhsBatch by decide), dif_pos (show (1 : Fin S512x1.rank) ∈ dot_S2000x512_S512x1_S2000x1_1_0_0_1_n_n.rhsNonContracting by decide)]
  rfl

/-- The block product into a zero accumulator, read at (p, c): the sum over the contracted coordinate. -/
theorem mm2_apply (l : FVec Ideal S2000x512 .bf16) (r : FVec Ideal S512x1 .bf16) (p : Fin 2000) (c : Fin 1) :
    matmul dot_S2000x512_S512x1_S2000x1_1_0_0_1_n_n none l r (constant (F := Ideal) S2000x1 .f32 0x00000000#32) (ix2 p c)
      = ∑ d : Fin 512, l (ix2 p d) * r (ix2 d c) := by
  simp only [matmul]
  rw [Ideal.matmul_constant_zero_apply, ← Equiv.sum_comp (ValueIdx.contrEquiv1 dot_S2000x512_S512x1_S2000x1_1_0_0_1_n_n 512 rfl rfl).symm]
  refine Finset.sum_congr rfl fun d _ => ?_
  have hk := ValueIdx.contrEquiv1_symm_val dot_S2000x512_S512x1_S2000x1_1_0_0_1_n_n 512 rfl rfl d
  have el : dot_S2000x512_S512x1_S2000x1_1_0_0_1_n_n.lhsIdx (ix2 p c) ((ValueIdx.contrEquiv1 dot_S2000x512_S512x1_S2000x1_1_0_0_1_n_n 512 rfl rfl).symm d) = ix2 p d := funext fun a => Fin.ext (by
    match a with
    | ⟨0, _⟩ => exact mm2_lhs0 _ _
    | ⟨1, _⟩ => exact (dot_S2000x512_S512x1_S2000x1_1_0_0_1_n_n.lhsIdx_val_of_single rfl _ _).trans hk)
  have er : dot_S2000x512_S512x1_S2000x1_1_0_0_1_n_n.rhsIdx (ix2 p c) ((ValueIdx.contrEquiv1 dot_S2000x512_S512x1_S2000x1_1_0_0_1_n_n 512 rfl rfl).symm d) = ix2 d c := funext fun a => Fin.ext (by
    match a with
    | ⟨0, _⟩ => exact (dot_S2000x512_S512x1_S2000x1_1_0_0_1_n_n.rhsIdx_val_of_single rfl _ _).trans hk
    | ⟨1, _⟩ => exact mm2_rhs1 _ _)
  rw [el, er]

theorem log_apply {s : Shape} {φ : FTy} (a : FVec Ideal s φ) (i : s.Idx) : log a i = Ideal.log (a i) := rfl
theorem logistic_apply {s : Shape} {φ : FTy} (a : FVec Ideal s φ) (i : s.Idx) : logistic a i = Ideal.logistic (a i) := rfl
theorem scalar_ofBits (b : BitVec 32) : Scalar.ofBits (F := Ideal) .f32 b = Ideal.ofBits .f32 b := rfl

/-- The negated term of row `p`, as the body computes it. -/
theorem negTerm_apply (x0 x1 : FVec Ideal S2000x256 .f32) (x2 : FVec Ideal S256x512 .bf16) (x3 : FVec Ideal S1x512 .f32)
    (x4 : FVec Ideal S512x1 .bf16) (x5 : FVec Ideal S1x1 .f32) (p : Fin 2000) :
    subf (broadcast S2000x1 (Scalar.ofBits (F := Ideal) .f32 0x00000000#32))
      (log (addf (logistic (addf
        (matmul dot_S2000x512_S512x1_S2000x1_1_0_0_1_n_n none
          (truncf .bf16 (maximumf (addf
            (matmul dot_S2000x256_S256x512_S2000x512_1_0_0_1_n_n none (truncf .bf16 (mulf x0 x1) bitsLt_bf16_f32) x2 (constant (F := Ideal) S2000x512 .f32 0x00000000#32))
            (broadcastTo S2000x512 x3 broadcasts_S1x512_S2000x512))
            (broadcast S2000x512 (Scalar.ofBits (F := Ideal) .f32 0x00000000#32))) bitsLt_bf16_f32)
          x4 (constant (F := Ideal) S2000x1 .f32 0x00000000#32))
        (broadcastTo S2000x1 x5 broadcasts_S1x1_S2000x1)))
        (broadcast S2000x1 (Scalar.ofBits (F := Ideal) .f32 0x26901D7D#32)))) (ix2 p (0 : Fin 1))
      = 0 - term (blkLogit x0 x1 x2 x3 x4 x5 p) := by
  rw [subf_apply, log_apply, addf_apply, logistic_apply, addf_apply, mm2_apply, broadcastTo_1b_ab_apply]
  simp only [truncf_apply, maximumf_apply, addf_apply, mm1_apply, broadcastTo_1b_ab_apply, mulf_apply, broadcast_apply,
    scalar_ofBits, Ideal.ofBits_zero_f32]
  rfl

/-- The zero block the first step stores. -/
theorem pay3_apply (j : S1x1.Idx) : k0_pay3 (F := Ideal) j = 0 := by
  unfold k0_pay3
  rw [shapeCast_self]
  exact Ideal.ofBits_zero_f32

/-- The store back into the scratch keeps the value. -/
theorem pay1_eq {F : FTy → Type} [FloatOps F] (v : FVec F S1x1 .f32) : k0_pay1 v = v := by
  unfold k0_pay1
  exact shapeCast_self v _

/-- The last step's quotient by the number of edges. -/
theorem pay2_apply (v : FVec Ideal S1x1 .f32) (j : S1x1.Idx) : k0_pay2 (F := Ideal) v j = Ideal.div (v j) cnt := rfl

/-- THE STEP: the new total is the old one plus the sum of the block's 2000 negated terms. -/
theorem pay4_apply (x0 x1 : FVec Ideal S2000x256 .f32) (x2 : FVec Ideal S256x512 .bf16) (x3 : FVec Ideal S1x512 .f32)
    (x4 : FVec Ideal S512x1 .bf16) (x5 xs : FVec Ideal S1x1 .f32) (j : S1x1.Idx) :
    k0_pay4 (F := Ideal) x0 x1 x2 x3 x4 x5 xs j
      = xs j + ∑ p : Fin 2000, (0 - term (blkLogit x0 x1 x2 x3 x4 x5 p)) := by
  obtain ⟨u, v, rfl⟩ : ∃ (u v : Fin 1), j = ix2 u v := ⟨j 0, j 1, eq_ix2 j⟩
  unfold k0_pay4
  simp only [shapeCast_self]
  rw [addf_apply]
  refine congrArg (xs (ix2 u v) + ·) ?_
  refine (shapeCast_a_1a_apply _ _ u v).trans ?_
  refine (Ideal.multiReduction_add_total _ _ _ (fun b => ?_) _ _ _).trans ?_
  · match b with
    | ⟨0, _⟩ => rfl
  refine (sum_idx2 _).trans ?_
  refine Finset.sum_congr rfl fun p _ => ?_
  rw [Fin.sum_univ_one]
  exact negTerm_apply x0 x1 x2 x3 x4 x5 p

end Cert.KernelIdeal.Block

end
-- ==== Proof.KernelCases.lean ====
/-
  What one grid step leaves behind, in each of its three control cases, as a value.

  The running total lives in a one-element scratch buffer the kernel keeps between grid steps.
    first step    : the scratch is set to the zero block, read back, and ends at the step's update of that zero;
    middle steps  : the scratch ends at the step's update of what the step before left in it;
    last step     : the same, and the output block is stored as the quotient of the new total.
  Each store covers its whole one-element buffer, so what a buffer ends with is the value of its last store, and a
  load after a covering store reads that store's value.
-/
import proofs.«119741_j66924180407021_1_alg».proof.Proof.Gen.KernelIdeal.Frame
import Idealize.ShloMosaic.Lib.Pipeline.Value
import Idealize.ShloMosaic.Lib.Tactic

noncomputable section

namespace Cert.KernelIdeal.Cases

open Cert.KernelIdeal Cert.KernelIdeal.Gen Idealize.ShloMosaic Idealize.ShloMosaic.TcCoe Idealize.SL.Sem
open Idealize.ShloMosaic.Tactic

variable {F : FTy → Type} [FloatOps F]

/-- The zero offsets of a whole-buffer access. -/
theorem hz : (![0, 0] : Fin 2 → Nat) = fun _ => 0 := funext fun a => by fin_cases a <;> rfl

/-- First step: the scratch ends at the update of the zero block. -/
theorem scratch_first (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x1 .bf16) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 : Vec F S2000x256 .f32) (x1 : Vec F S2000x256 .f32) (x2 : Vec F S256x512 .bf16) (x3 : Vec F S1x512 .f32) (x4 : Vec F S512x1 .bf16) (x5 : Vec F S1x1 .f32) :
    sout0_A_0 c i arg1 harg1 arg2 harg2 arg3 harg3 arg4 harg4 arg5 harg5 arg6 harg6 arg7 harg7 arg8 harg8 hc0 hc1 x0 x1 x2 x3 x4 x5 = k0_pay1 (k0_pay4 x0 x1 x2 x3 x4 x5 (k0_pay3 (F := F))) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg8.read_unread, View.ld_unit_zero (S := S2000x256) hz, View.ld_unit_zero (S := S256x512) hz, View.ld_unit_zero (S := S1x512) hz, View.ld_unit_zero (S := S512x1) hz, View.ld_unit_zero (S := S1x1) hz]

/-- A middle step: the scratch ends at the update of what it held. -/
theorem scratch_middle (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x1 .bf16) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 : Vec F S2000x256 .f32) (x1 : Vec F S2000x256 .f32) (x2 : Vec F S256x512 .bf16) (x3 : Vec F S1x512 .f32) (x4 : Vec F S512x1 .bf16) (x5 : Vec F S1x1 .f32) (xs0 : Vec F S1x1 .f32) :
    sout0_B_0 c i arg1 harg1 arg2 harg2 arg3 harg3 arg4 harg4 arg5 harg5 arg6 harg6 arg7 harg7 arg8 harg8 hc0 hc1 x0 x1 x2 x3 x4 x5 xs0 = k0_pay1 (k0_pay4 x0 x1 x2 x3 x4 x5 xs0) := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 x4 x5 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S2000x256) hz, View.ld_unit_zero (S := S256x512) hz, View.ld_unit_zero (S := S1x512) hz, View.ld_unit_zero (S := S512x1) hz, View.ld_unit_zero (S := S1x1) hz]

/-- The last step: the scratch likewise, -/
theorem scratch_last (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x1 .bf16) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S2000x256 .f32) (x1 : Vec F S2000x256 .f32) (x2 : Vec F S256x512 .bf16) (x3 : Vec F S1x512 .f32) (x4 : Vec F S512x1 .bf16) (x5 : Vec F S1x1 .f32) (xs0 : Vec F S1x1 .f32) :
    sout0_C_0 c i arg1 harg1 arg2 harg2 arg3 harg3 arg4 harg4 arg5 harg5 arg6 harg6 arg7 harg7 arg8 harg8 hc0 hc1 x0 x1 x2 x3 x4 x5 xs0 = k0_pay1 (k0_pay4 x0 x1 x2 x3 x4 x5 xs0) := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz]
  simp only [View.readAt_eq_ld, harg1.read_unread, harg2.read_unread, harg3.read_unread, harg4.read_unread, harg5.read_unread, harg6.read_unread, harg8.read_unread, View.ld_unit_zero (S := S2000x256) hz, View.ld_unit_zero (S := S256x512) hz, View.ld_unit_zero (S := S1x512) hz, View.ld_unit_zero (S := S512x1) hz, View.ld_unit_zero (S := S1x1) hz]

/-- and the output block is the quotient of the new total. -/
theorem out_last (c : Dev nD) (i : grid0.Coords) (arg1 : Memref sig .tc .vmem S2000x256 .f32) (harg1 : arg1.IsWhole) (arg2 : Memref sig .tc .vmem S2000x256 .f32) (harg2 : arg2.IsWhole) (arg3 : Memref sig .tc .vmem S256x512 .bf16) (harg3 : arg3.IsWhole) (arg4 : Memref sig .tc .vmem S1x512 .f32) (harg4 : arg4.IsWhole) (arg5 : Memref sig .tc .vmem S512x1 .bf16) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 : Vec F S2000x256 .f32) (x1 : Vec F S2000x256 .f32) (x2 : Vec F S256x512 .bf16) (x3 : Vec F S1x512 .f32) (x4 : Vec F S512x1 .bf16) (x5 : Vec F S1x1 .f32) (xs0 : Vec F S1x1 .f32) :
    out0_C_6 c i arg1 harg1 arg2 harg2 arg3 harg3 arg4 harg4 arg5 harg5 arg6 harg6 arg7 harg7 arg8 harg8 hc0 hc1 x0 x1 x2 x3 x4 x5 xs0 = k0_pay2 (k0_pay1 (k0_pay4 x0 x1 x2 x3 x4 x5 xs0)) := by
  unfold out0_C_6
  rw [View.read_writes_eq_canon _ _ _ (cover0_C_6 c i arg1 harg1 arg2 harg2 arg3 harg3 arg4 harg4 arg5 harg5 arg6 harg6 arg7 harg7 arg8 harg8 hc0 hc1 x0 x1 x2 x3 x4 x5 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg4.read_unread, harg5.read_unread, harg6.read_unread, harg8.read_unread, View.ld_unit_zero (S := S2000x256) hz, View.ld_unit_zero (S := S256x512) hz, View.ld_unit_zero (S := S1x512) hz, View.ld_unit_zero (S := S512x1) hz, View.ld_unit_zero (S := S1x1) hz]

end Cert.KernelIdeal.Cases

end
-- ==== Proof.KernelEntry.lean ====
/-
  What the region finds in its windows' arrays, and what a window's block is at a grid step.

  The two [500000, 256] arrays of endpoint embeddings are the host's gathers; the weight arrays reach the region
  through a change of float format (the identity on the extended reals) or a reshape that adds a unit axis
  ([512] to [1, 512], [1] to [1, 1]). Grid step t sees rows 2000·t … 2000·t + 1999 of the two embedding arrays and
  the weight arrays whole.
-/
import proofs.«119741_j66924180407021_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The weight arrays as the region finds them -/

/-- The first layer's weights: the argument, its float format changed. -/
theorem w1_eq (c : Dev nD) : (V m c main_v18 : S256x512.Idx → EReal) = m ((c : Thread nD τ).loc main_arg4) := by
  show StableHlo.after hostOps0 (fun b => m (c, b)) (Proc.devRef .tc main_v18) = _
  after_results
  rfl

/-- The second layer's weights likewise. -/
theorem w2_eq (c : Dev nD) : (V m c main_v19 : S512x1.Idx → EReal) = m ((c : Thread nD τ).loc main_arg6) := by
  show StableHlo.after hostOps0 (fun b => m (c, b)) (Proc.devRef .tc main_v19) = _
  after_results
  rfl

/-- The first layer's bias as a one-row matrix. -/
theorem b1_eq (c : Dev nD) : (V m c main_v20 : S1x512.Idx → EReal)
    = shapeCast S1x512 (m ((c : Thread nD τ).loc main_arg5)) shapeCasts_S512_S1x512 := by
  show StableHlo.after hostOps0 (fun b => m (c, b)) (Proc.devRef .tc main_v20) = _
  after_results
  rfl

/-- The second layer's bias as a one-element matrix. -/
theorem b2_eq (c : Dev nD) : (V m c main_v21 : S1x1.Idx → EReal)
    = shapeCast S1x1 (m ((c : Thread nD τ).loc main_arg7)) shapeCasts_S1_S1x1 := by
  show StableHlo.after hostOps0 (fun b => m (c, b)) (Proc.devRef .tc main_v21) = _
  after_results
  rfl

theorem b1_apply (c : Dev nD) (k : Fin 512) :
    (V m c main_v20 : S1x512.Idx → EReal) (ix2 (0 : Fin 1) k) = m ((c : Thread nD τ).loc main_arg5) (ix1 k) := by
  rw [b1_eq]
  exact shapeCast_a_1a_apply _ _ (0 : Fin 1) k

theorem b2_apply (c : Dev nD) :
    (V m c main_v21 : S1x1.Idx → EReal) (ix2 (0 : Fin 1) (0 : Fin 1)) = m ((c : Thread nD τ).loc main_arg7) (ix1 (0 : Fin 1)) := by
  rw [b2_eq]
  exact shapeCast_a_1a_apply _ _ (0 : Fin 1) (0 : Fin 1)

/-! ## The windows' blocks -/

/-- Where each window's block sits at a grid step: the embedding windows move down one block of rows per step, the
    weight windows stay. -/
theorem where0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem where1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem where2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem where3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem where4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem where5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Row p of the first embedding block at step t is row 2000·t + p of the array. -/
theorem blockA_apply (c : Dev nD) (t : Fin cfg0.N) (p : Fin 2000) (d : Fin 256) (e : Fin 500000)
    (he : e.val = t.val * 2000 + p.val) :
    (iblk m c 0 t : S2000x256.Idx → EReal) (ix2 p d) = (V m c main_v8 : S500000x256.Idx → EReal) (ix2 e d) := by
  unfold iblk
  rw [View.read_apply]
  show V m c main_v8 (((cfg0.win 0).blk t).view.emb (ix2 p d)) = V m c main_v8 (ix2 e d)
  refine congrArg (V m c main_v8) (funext fun a => Fin.ext ?_)
  match a with
  | ⟨0, _⟩ => show win0_0.index t 0 * 2000 + 1 * p.val = e.val; rw [(where0 t).1]; omega
  | ⟨1, _⟩ => show win0_0.index t 1 * 256 + 1 * d.val = d.val; rw [(where0 t).2]; omega

/-- The second embedding block likewise. -/
theorem blockB_apply (c : Dev nD) (t : Fin cfg0.N) (p : Fin 2000) (d : Fin 256) (e : Fin 500000)
    (he : e.val = t.val * 2000 + p.val) :
    (iblk m c 1 t : S2000x256.Idx → EReal) (ix2 p d) = (V m c main_v17 : S500000x256.Idx → EReal) (ix2 e d) := by
  unfold iblk
  rw [View.read_apply]
  show V m c main_v17 (((cfg0.win 1).blk t).view.emb (ix2 p d)) = V m c main_v17 (ix2 e d)
  refine congrArg (V m c main_v17) (funext fun a => Fin.ext ?_)
  match a with
  | ⟨0, _⟩ => show win0_1.index t 0 * 2000 + 1 * p.val = e.val; rw [(where1 t).1]; omega
  | ⟨1, _⟩ => show win0_1.index t 1 * 256 + 1 * d.val = d.val; rw [(where1 t).2]; omega

/-- The first layer's weights are seen whole at every step. -/
theorem blockW1_apply (c : Dev nD) (t : Fin cfg0.N) (d : Fin 256) (k : Fin 512) :
    (iblk m c 2 t : S256x512.Idx → EReal) (ix2 d k) = m ((c : Thread nD τ).loc main_arg4) (ix2 d k) := by
  rw [← w1_eq m c]
  unfold iblk
  rw [View.read_apply]
  show V m c main_v18 (((cfg0.win 2).blk t).view.emb (ix2 d k)) = V m c main_v18 (ix2 d k)
  refine congrArg (V m c main_v18) (funext fun a => Fin.ext ?_)
  match a with
  | ⟨0, _⟩ => show win0_2.index t 0 * 256 + 1 * d.val = d.val; rw [(where2 t).1]; omega
  | ⟨1, _⟩ => show win0_2.index t 1 * 512 + 1 * k.val = k.val; rw [(where2 t).2]; omega

/-- The first layer's bias row likewise. -/
theorem blockB1_apply (c : Dev nD) (t : Fin cfg0.N) (k : Fin 512) :
    (iblk m c 3 t : S1x512.Idx → EReal) (ix2 (0 : Fin 1) k) = m ((c : Thread nD τ).loc main_arg5) (ix1 k) := by
  rw [← b1_apply m c k]
  unfold iblk
  rw [View.read_apply]
  show V m c main_v20 (((cfg0.win 3).blk t).view.emb (ix2 (0 : Fin 1) k)) = V m c main_v20 (ix2 (0 : Fin 1) k)
  refine congrArg (V m c main_v20) (funext fun a => Fin.ext ?_)
  match a with
  | ⟨0, _⟩ => show win0_3.index t 0 * 1 + 1 * 0 = 0; rw [(where3 t).1]
  | ⟨1, _⟩ => show win0_3.index t 1 * 512 + 1 * k.val = k.val; rw [(where3 t).2]; omega

/-- The second layer's weights. -/
theorem blockW2_apply (c : Dev nD) (t : Fin cfg0.N) (k : Fin 512) (q : Fin 1) :
    (iblk m c 4 t : S512x1.Idx → EReal) (ix2 k q) = m ((c : Thread nD τ).loc main_arg6) (ix2 k q) := by
  rw [← w2_eq m c]
  unfold iblk
  rw [View.read_apply]
  show V m c main_v19 (((cfg0.win 4).blk t).view.emb (ix2 k q)) = V m c main_v19 (ix2 k q)
  refine congrArg (V m c main_v19) (funext fun a => Fin.ext ?_)
  match a with
  | ⟨0, _⟩ => show win0_4.index t 0 * 512 + 1 * k.val = k.val; rw [(where4 t).1]; omega
  | ⟨1, _⟩ => show win0_4.index t 1 * 1 + 1 * q.val = q.val; rw [(where4 t).2]; omega

/-- The second layer's bias. -/
theorem blockB2_apply (c : Dev nD) (t : Fin cfg0.N) :
    (iblk m c 5 t : S1x1.Idx → EReal) (ix2 (0 : Fin 1) (0 : Fin 1)) = m ((c : Thread nD τ).loc main_arg7) (ix1 (0 : Fin 1)) := by
  rw [← b2_apply m c]
  unfold iblk
  rw [View.read_apply]
  show V m c main_v21 (((cfg0.win 5).blk t).view.emb (ix2 (0 : Fin 1) (0 : Fin 1))) = V m c main_v21 (ix2 (0 : Fin 1) (0 : Fin 1))
  refine congrArg (V m c main_v21) (funext fun a => Fin.ext ?_)
  match a with
  | ⟨0, _⟩ => show win0_5.index t 0 * 1 + 1 * 0 = 0; rw [(where5 t).1]
  | ⟨1, _⟩ => show win0_5.index t 1 * 1 + 1 * 0 = 0; rw [(where5 t).2]

end Cert.KernelIdeal.Entry

end
-- ==== Proof.KernelValue.lean ====
/-
  The kernel's result is the loss function of LossSpec.lean, of the arrays the region finds.

  Step by step the scratch total is the running total of LossAlgebra.lean over the per-edge terms: the first step
  leaves zero plus its block's sum of negated terms, every later step adds its own block's sum (induction on the
  step). The last step stores the total divided by the number of edges into the one-element output block, the only
  block written back, which is the whole output array; the host then reshapes that array to a scalar. By the law of
  LossAlgebra.lean the quotient is the negated mean of the terms.
-/
import proofs.«119741_j66924180407021_1_alg».proof.Proof.KernelBlock
import proofs.«119741_j66924180407021_1_alg».proof.Proof.KernelCases
import proofs.«119741_j66924180407021_1_alg».proof.Proof.KernelEntry
import Idealize.ShloMosaic.Lib.Pipeline.Value
import Idealize.ShloMosaic.Lib.StableHlo.Run

noncomputable section

namespace Cert.KernelIdeal.LossValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.LinkLoss Cert.KernelIdeal.Block Cert.KernelIdeal.Cases Cert.KernelIdeal.Entry

variable (m : (ℓ : Loc nD τ sig) → Buf (Elt Ideal) ℓ) (ρ : Dev nD → PrngReg)

/-- The per-edge terms of the arrays the region finds, by edge number. -/
def edgeTerm (c : Dev nD) : ℕ → EReal :=
  termAt (V m c main_v8 : S500000x256.Idx → EReal) (V m c main_v17 : S500000x256.Idx → EReal) (m ((c : Thread nD τ).loc main_arg4)) (m ((c : Thread nD τ).loc main_arg5)) (m ((c : Thread nD τ).loc main_arg6)) (m ((c : Thread nD τ).loc main_arg7))

/-- The running total of the negated terms after step `n`. -/
def total (c : Dev nD) (n : ℕ) : EReal := accum (fun e => 0 - edgeTerm m c e) n

/-- The kernel's loss: that of the arrays the region finds. -/
def kloss (c : Dev nD) : EReal :=
  loss (V m c main_v8 : S500000x256.Idx → EReal) (V m c main_v17 : S500000x256.Idx → EReal) (m ((c : Thread nD τ).loc main_arg4)) (m ((c : Thread nD τ).loc main_arg5)) (m ((c : Thread nD τ).loc main_arg6)) (m ((c : Thread nD τ).loc main_arg7))

/-- Row p of step t's block has the logit of edge 2000·t + p. -/
theorem blkLogit_eq (c : Dev nD) (t : Fin cfg0.N) (p : Fin 2000) (e : Fin 500000) (he : e.val = t.val * 2000 + p.val) :
    blkLogit (iblk m c 0 t) (iblk m c 1 t) (iblk m c 2 t) (iblk m c 3 t) (iblk m c 4 t) (iblk m c 5 t) p
      = logit (V m c main_v8 : S500000x256.Idx → EReal) (V m c main_v17 : S500000x256.Idx → EReal) (m ((c : Thread nD τ).loc main_arg4)) (m ((c : Thread nD τ).loc main_arg5)) (m ((c : Thread nD τ).loc main_arg6)) (m ((c : Thread nD τ).loc main_arg7)) e := by
  unfold blkLogit logit blkHidden Cert.LinkLoss.hidden
  rw [blockB2_apply m c t]
  refine congrArg (· + _) (Finset.sum_congr rfl fun k _ => ?_)
  rw [blockW2_apply m c t k 0, blockB1_apply m c t k]
  refine congrArg (fun z => max (z + _) 0 * _) (Finset.sum_congr rfl fun d _ => ?_)
  rw [blockA_apply m c t p d e he, blockB_apply m c t p d e he, blockW1_apply m c t d k]

/-- So step t's sum of negated terms is the sum over edges 2000·t … 2000·t + 1999. -/
theorem block_terms (c : Dev nD) (t : Fin cfg0.N) :
    ∑ p : Fin 2000, (0 - term (blkLogit (iblk m c 0 t) (iblk m c 1 t) (iblk m c 2 t) (iblk m c 3 t) (iblk m c 4 t) (iblk m c 5 t) p))
      = ∑ p : Fin 2000, (0 - edgeTerm m c (t.val * 2000 + p.val)) := by
  have hN : t.val < 250 := lt_of_lt_of_eq t.isLt (show cfg0.N = 250 from N_0)
  refine Finset.sum_congr rfl fun p _ => ?_
  have hp : p.val < 2000 := p.isLt
  have he : t.val * 2000 + p.val < 500000 := by omega
  unfold edgeTerm termAt
  rw [dif_pos he, blkLogit_eq m c t p ⟨t.val * 2000 + p.val, he⟩ rfl]

/-- One step on a constant total `a`: the total plus the step's block sum. -/
theorem step_eq (c : Dev nD) (t : Fin cfg0.N) (a : EReal) :
    k0_pay1 (k0_pay4 (F := Ideal) (iblk m c 0 t) (iblk m c 1 t) (iblk m c 2 t) (iblk m c 3 t) (iblk m c 4 t) (iblk m c 5 t) (fun _ => a))
      = fun _ => a + ∑ p : Fin 2000, (0 - edgeTerm m c (t.val * 2000 + p.val)) := by
  refine (pay1_eq _).trans ?_
  funext j
  refine (pay4_apply (iblk m c 0 t) (iblk m c 1 t) (iblk m c 2 t) (iblk m c 3 t) (iblk m c 4 t) (iblk m c 5 t) (fun _ => a) j).trans ?_
  rw [block_terms m c t]

/-- What the scratch holds after a first, middle or last step, over the step's blocks. -/
theorem scr_first (c : Dev nD) (t : Fin cfg0.N) (h0 : t.val % 250 = 0) (h1 : ¬t.val % 250 = 249) :
    (outsAt0 m c t.val t.isLt).2 = k0_pay1 (k0_pay4 (iblk m c 0 t) (iblk m c 1 t) (iblk m c 2 t) (iblk m c 3 t) (iblk m c 4 t) (iblk m c 5 t) (k0_pay3 (F := Ideal))) := by
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem scr_middle (c : Dev nD) (t : Fin cfg0.N) (h0 : ¬t.val % 250 = 0) (h1 : ¬t.val % 250 = 249) :
    (outsAt0 m c t.val t.isLt).2
      = k0_pay1 (k0_pay4 (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  rw [outsAt0_B m c t h0 h1]
  dsimp only
  exact scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

theorem scr_last (c : Dev nD) (t : Fin cfg0.N) (h0 : ¬t.val % 250 = 0) (h1 : t.val % 250 = 249) :
    (outsAt0 m c t.val t.isLt).2
      = k0_pay1 (k0_pay4 (iblk m c 0 t) (iblk m c 1 t) (iblk m c 2 t) (iblk m c 3 t) (iblk m c 4 t) (iblk m c 5 t) (outsAt0 m c (t.val - 1) (Nat.lt_of_le_of_lt (Nat.sub_le _ _) t.isLt)).2) := by
  rw [outsAt0_C m c t h0 h1]
  dsimp only
  exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- and the output block after the last step. -/
theorem out_at_last (c : Dev nD) (t : Fin cfg0.N) (h0 : ¬t.val % 250 = 0) (h1 : t.val % 250 = 249) :
    (outsAt0 m c t.val t.isLt).1
      = k0_pay2 (k0_pay1 (k0_pay4 (iblk m c 0 t) (iblk m c 1 t) (iblk m c 2 t) (iblk m c 3 t) (iblk m c 4 t) (iblk m c 5 t) (outsAt0 m c (t.val - 1) (Nat.lt_of_le_of_lt (Nat.sub_le _ _) t.isLt)).2)) := by
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- THE INVARIANT: after step n the scratch holds the running total after n steps. By induction on the step. -/
theorem scratch_eq (c : Dev nD) : ∀ (n : ℕ) (h : n < cfg0.N), (outsAt0 m c n h).2 = fun _ => total m c n := by
  intro n
  induction n with
  | zero =>
    intro h
    refine (scr_first m c ⟨0, h⟩ rfl (by show ¬(0 : ℕ) % 250 = 249; decide)).trans ?_
    rw [show (k0_pay3 (F := Ideal)) = fun _ => (0 : EReal) from funext pay3_apply]
    exact step_eq m c ⟨0, h⟩ 0
  | succ n ih =>
    intro h
    have hN : cfg0.N = 250 := N_0
    have hlt : n < cfg0.N := by omega
    have h0 : ¬(⟨n + 1, h⟩ : Fin cfg0.N).val % 250 = 0 := by dsimp only; omega
    have hstep : k0_pay1 (k0_pay4 (F := Ideal) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n hlt).2) = fun _ => total m c (n + 1) := by
      rw [ih hlt]
      exact step_eq m c ⟨n + 1, h⟩ (total m c n)
    by_cases h1 : (⟨n + 1, h⟩ : Fin cfg0.N).val % 250 = 249
    · exact (scr_last m c ⟨n + 1, h⟩ h0 h1).trans hstep
    · exact (scr_middle m c ⟨n + 1, h⟩ h0 h1).trans hstep

/-- The last point of the grid. -/
abbrev tLast : Fin cfg0.N := ⟨249, lt_of_lt_of_eq (by decide : 249 < 250) N_0.symm⟩

/-- The output block after the last step: the total over all edges divided by their number. -/
theorem out_eq (c : Dev nD) : (outsAt0 m c tLast.val tLast.isLt).1 = fun _ => Ideal.div (total m c 249) cnt := by
  refine (out_at_last m c tLast (by decide) (by decide)).trans ?_
  have hstep : k0_pay1 (k0_pay4 (F := Ideal) (iblk m c 0 tLast) (iblk m c 1 tLast) (iblk m c 2 tLast) (iblk m c 3 tLast) (iblk m c 4 tLast) (iblk m c 5 tLast) (outsAt0 m c 248 (lt_of_lt_of_eq (by decide : 248 < 250) N_0.symm)).2)
      = fun _ => total m c 249 := by
    rw [scratch_eq m c 248]
    exact step_eq m c tLast (total m c 248)
  show k0_pay2 (k0_pay1 (k0_pay4 (F := Ideal) (iblk m c 0 tLast) (iblk m c 1 tLast) (iblk m c 2 tLast) (iblk m c 3 tLast) (iblk m c 4 tLast) (iblk m c 5 tLast) (outsAt0 m c 248 (lt_of_lt_of_eq (by decide : 248 < 250) N_0.symm)).2)) = _
  rw [hstep]
  funext j
  exact pay2_apply _ j

/-- The output array after the run: one element, the kernel's loss. -/
abbrev result (c : Dev nD) : Buf (Elt Ideal) ((c : Thread nD τ).loc main_v22) := fun _ => kloss m c

theorem quotient_eq (c : Dev nD) : Ideal.div (total m c 249) cnt = kloss m c :=
  blocked_loss _ _ _ _ _ _

/-- The one write-back, at the last step, writes the loss. -/
theorem flushed_eq (c : Dev nD) (t : Fin cfg0.N) (hf : (cfg0.win 6).flush t = true) :
    (dats m 0 c).flushed 6 t = ((cfg0.win 6).blk t).view.read (Elt Ideal) (result m c) := by
  have hN : cfg0.N = 250 := N_0
  have h249 : t.val = 249 := by have := (flush0_6 t).mp hf; have := t.isLt; omega
  obtain rfl : t = tLast := Fin.ext h249
  show (cfg0.win 6).cut (grid0.coords tLast) ((dats m 0 c).after 6 tLast) = _
  rw [after0_6, out_eq, quotient_eq]
  rfl

/-- The last step's block is the whole one-element array, so the array ends at the loss. -/
theorem final_out (c : Dev nD) : (dats m 0 c).arrAt 6 cfg0.N = result m c :=
  (dats m 0 c).arrAt_eq_of_cover 6 (result m c) (flushed_eq m c) fun i =>
    ⟨tLast, (flush0_6 tLast).mpr (by decide), by
      show i ∈ ((View.whole main_v22).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_6.index tLast 0 * win0_6.size 0 ≤ (i 0 : Nat) ∧ (i 0 : Nat) < win0_6.index tLast 0 * win0_6.size 0 + win0_6.xsize (grid0.coords tLast) 0
                  rw [show win0_6.index tLast 0 * win0_6.size 0 = 0 from by decide +kernel, show win0_6.xsize (grid0.coords tLast) 0 = 1 from by decide +kernel]; omega
      | ⟨1, _⟩ => show win0_6.index tLast 1 * win0_6.size 1 ≤ (i 1 : Nat) ∧ (i 1 : Nat) < win0_6.index tLast 1 * win0_6.size 1 + win0_6.xsize (grid0.coords tLast) 1
                  rw [show win0_6.index tLast 1 * win0_6.size 1 = 0 from by decide +kernel, show win0_6.xsize (grid0.coords tLast) 1 = 1 from by decide +kernel]; omega⟩

/-- The host's reshape of the one-element array to a scalar keeps the value. -/
theorem tail_eq (c : Dev nD) :
    Pipeline.afterTail₀ cfgs (dats m) 0 (V0 m) [hostOps1] c main_v23 = fun _ => kloss m c := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.devRef .tc main_v22)
      = result m c :=
    (Pipeline.withArrays_arr spec0 launch0.win.arr_inj c _ _ 6).trans (final_out m c)
  rw [e]
  rfl

/-- THE KERNEL'S RUN, read: the scalar result is the loss, the arguments unchanged. -/
theorem run : θ_run defs (onTc (τ := τ) (main (F := Ideal))) ⟨m, fun _ => 0, ρ⟩ (fun r => ∀ c : Dev nD,
      r.2.mem ((c.tc : Thread nD τ).loc main_v23) = (fun _ => kloss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.LossValue

end
-- ==== Proof.RefValue.lean ====
/-
  The reference computes the loss function of LossSpec.lean.

  Read one operation at a time, index by index: the product of the two gathered embedding arrays, the first
  matrix product plus the broadcast bias, the maximum with zero, the second matrix product plus its bias, the
  logistic function spelt 1 / (1 + e^(-z)), the smoothing constant added, the logarithm, the sum over all edges
  started from zero, the quotient by the number of edges, the negation. The two gathered arrays are left as the
  host computes them: the other program gathers in the same way.
-/
import proofs.«119741_j66924180407021_1_alg».proof.Proof.Gen.ReferenceIdeal.Read
import proofs.«119741_j66924180407021_1_alg».proof.Proof.LossSpec
import Idealize.ShloMosaic.Lib.IdealHost

noncomputable section

namespace Cert.ReferenceIdeal.RefValue

open Cert.ReferenceIdeal Cert.ReferenceIdeal.Read Idealize.ShloMosaic Idealize.ShloMosaic.ValueIdx Cert.LinkLoss

/-! ## The composed index functions at coordinates -/

theorem lidx19 (e : Fin 500000) (k : Fin 512) (d : Fin 256) : lidx_main_v19 (ix2 e k) d = ix2 e d := funext fun a => Fin.ext (by match a with | ⟨0, _⟩ => rfl | ⟨1, _⟩ => rfl)
theorem ridx19 (e : Fin 500000) (k : Fin 512) (d : Fin 256) : ridx_main_v19 (ix2 e k) d = ix2 d k := funext fun a => Fin.ext (by match a with | ⟨0, _⟩ => rfl | ⟨1, _⟩ => rfl)
theorem idx21 (e : Fin 500000) (k : Fin 512) : idx_main_v21 (ix2 e k) = ix2 (0 : Fin 1) k := funext fun a => Fin.ext (by match a with | ⟨0, _⟩ => rfl | ⟨1, _⟩ => rfl)
theorem idx20 (k : Fin 512) : idx_main_v20 (ix2 (0 : Fin 1) k) = ix1 k := funext fun a => Fin.ext (by match a with | ⟨0, _⟩ => rfl)
theorem lidx24 (e : Fin 500000) (q : Fin 1) (k : Fin 512) : lidx_main_v24 (ix2 e q) k = ix2 e k := funext fun a => Fin.ext (by match a with | ⟨0, _⟩ => rfl | ⟨1, _⟩ => rfl)
theorem ridx24 (e : Fin 500000) (q : Fin 1) (k : Fin 512) : ridx_main_v24 (ix2 e q) k = ix2 k q := funext fun a => Fin.ext (by match a with | ⟨0, _⟩ => rfl | ⟨1, _⟩ => rfl)
theorem idx26 (e : Fin 500000) (q : Fin 1) : idx_main_v26 (ix2 e q) = ix2 (0 : Fin 1) (0 : Fin 1) := funext fun a => Fin.ext (by match a with | ⟨0, _⟩ => rfl | ⟨1, _⟩ => rfl)
theorem idx25 : idx_main_v25 (ix2 (0 : Fin 1) (0 : Fin 1)) = ix1 (0 : Fin 1) := funext fun a => Fin.ext (by match a with | ⟨0, _⟩ => rfl)

/-! ## The stages at an index -/

/-- The hidden activations. -/
theorem hidden_apply (x2 : (⟨S100000x256, .f32⟩ : BufTy).Contents (Elt Ideal)) (x3 : (⟨S2x500000, .i32⟩ : BufTy).Contents (Elt Ideal)) (x4 : (⟨S256x512, .f32⟩ : BufTy).Contents (Elt Ideal)) (x5 : (⟨S512, .f32⟩ : BufTy).Contents (Elt Ideal)) (e : Fin 500000) (k : Fin 512) :
    val_main_v23 (F := Ideal) x2 x3 x4 x5 (ix2 e k)
      = hidden (val_main_v8 (F := Ideal) x2 x3) (val_main_v17 (F := Ideal) x2 x3) x4 x5 e k := by
  rw [val_main_v23_apply, val_main_v22_apply, val_main_v19_apply, val_main_v21_apply, val_main_v20_apply,
    val_main_call0_v0_apply, val_main_call0_cst_apply]
  simp only [val_main_v18_apply, lidx19, ridx19, idx21, idx20, Ideal.maximumf_def, Ideal.addf_def, Ideal.mulf_def,
    Ideal.ofBits_def, Ideal.ofBits_zero_f32]
  rfl

/-- The logits. -/
theorem logit_apply (x2 : (⟨S100000x256, .f32⟩ : BufTy).Contents (Elt Ideal)) (x3 : (⟨S2x500000, .i32⟩ : BufTy).Contents (Elt Ideal)) (x4 : (⟨S256x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (e : Fin 500000) :
    val_main_v27 (F := Ideal) x2 x3 x4 x5 x6 x7 (ix2 e (0 : Fin 1))
      = logit (val_main_v8 (F := Ideal) x2 x3) (val_main_v17 (F := Ideal) x2 x3) x4 x5 x6 x7 e := by
  rw [val_main_v27_apply, val_main_v24_apply, val_main_v26_apply, val_main_v25_apply]
  unfold logit
  simp only [lidx24, ridx24, idx26, idx25, Ideal.addf_def]
  refine congrArg (· + _) (Finset.sum_congr rfl fun k _ => ?_)
  rw [hidden_apply]

/-- The per-edge terms. -/
theorem term_apply (x2 : (⟨S100000x256, .f32⟩ : BufTy).Contents (Elt Ideal)) (x3 : (⟨S2x500000, .i32⟩ : BufTy).Contents (Elt Ideal)) (x4 : (⟨S256x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) (e : Fin 500000) :
    val_main_v36 (F := Ideal) x2 x3 x4 x5 x6 x7 (ix2 e (0 : Fin 1))
      = term (logit (val_main_v8 (F := Ideal) x2 x3) (val_main_v17 (F := Ideal) x2 x3) x4 x5 x6 x7 e) := by
  rw [val_main_v36_apply, val_main_v35_apply, val_main_v33_apply, val_main_v32_apply, val_main_cst_3_apply,
    val_main_v31_apply, val_main_v30_apply, val_main_cst_apply, val_main_v29_apply, val_main_v28_apply,
    val_main_v34_apply, val_main_cst_4_apply, logit_apply]
  unfold term Ideal.logistic
  simp only [Ideal.hostUnary_log_def, Ideal.addf_def, Ideal.hostDivf_def, Ideal.ofBits_def, Ideal.ofBits_one_f32,
    Ideal.hostUnary_exp_def, Ideal.hostNegf_def, Ideal.negf_def]

/-- THE REFERENCE'S RESULT is the loss of the gathered arrays and the weights. -/
theorem result_eq (x2 : (⟨S100000x256, .f32⟩ : BufTy).Contents (Elt Ideal)) (x3 : (⟨S2x500000, .i32⟩ : BufTy).Contents (Elt Ideal)) (x4 : (⟨S256x512, .f32⟩ : BufTy).Contents (Elt Ideal)) (x5 : (⟨S512, .f32⟩ : BufTy).Contents (Elt Ideal)) (x6 : (⟨S512x1, .f32⟩ : BufTy).Contents (Elt Ideal)) (x7 : (⟨S1, .f32⟩ : BufTy).Contents (Elt Ideal)) :
    val_main_v39 (F := Ideal) x2 x3 x4 x5 x6 x7
      = fun _ => loss (val_main_v8 (F := Ideal) x2 x3) (val_main_v17 (F := Ideal) x2 x3) x4 x5 x6 x7 := by
  funext i
  rw [val_main_v39_apply, val_main_v38_apply, val_main_v37_apply, val_main_cst_6_apply, val_main_cst_5_apply]
  unfold loss
  rw [sum_idx2]
  simp only [Fin.sum_univ_one, term_apply, Ideal.hostNegf_def, Ideal.negf_def, Ideal.hostDivf_def, Ideal.ofBits_def,
    Ideal.ofBits_zero_f32]

end Cert.ReferenceIdeal.RefValue

end
-- ==== Proof.lean ====
/-
  The link-prediction loss: a kernel that walks the 500000 edges in 250 blocks of 2000 against the plain formula.

  Both programs gather the two endpoint embeddings of every edge from the same table in the same way, multiply
  them entry by entry, and apply the same two-layer predictor: z(e) = Σ_k max (Σ_d (A(e,d)·B(e,d))·W1(d,k) + b1(k)) 0
  · W2(k,0) + b2(0). The kernel rounds to a shorter float format on the way into its two block products, which is
  the identity on the extended reals, and its logistic operation is the formula 1 / (1 + e^(-z)) the other program
  spells out. The kernel sums the NEGATED terms -log (σ(z) + ε) block by block into a running total that starts
  from zero and divides the last total by N; the other program sums the terms log (σ(z) + ε) over all edges, divides
  by N and negates. The two agree because no term is +∞ (σ ≤ 1 at every extended real and ε is a real number), so
  the sum may be negated term by term; no property of the inputs is used.

  The kernel's word-level program and its reading on the extended reals are the same text (nothing was rewritten),
  so the statement relating them is trivial. Every program terminates with its arguments unchanged: for the two
  kernel programs by their runs point by point over the grid, for the host program by its straight-line run.
-/
import proofs.«119741_j66924180407021_1_alg».proof.Defs
import proofs.«119741_j66924180407021_1_alg».proof.Proof.Gen.Kernel
import proofs.«119741_j66924180407021_1_alg».proof.Proof.Gen.Kernel.Skeleton
import proofs.«119741_j66924180407021_1_alg».proof.Proof.Gen.Kernel.Launch
import proofs.«119741_j66924180407021_1_alg».proof.Proof.Gen.Kernel.Points
import proofs.«119741_j66924180407021_1_alg».proof.Proof.Gen.Kernel.Frame
import proofs.«119741_j66924180407021_1_alg».proof.Proof.Gen.KernelIdeal
import proofs.«119741_j66924180407021_1_alg».proof.Proof.Gen.KernelIdeal.Skeleton
import proofs.«119741_j66924180407021_1_alg».proof.Proof.Gen.KernelIdeal.Launch
import proofs.«119741_j66924180407021_1_alg».proof.Proof.Gen.KernelIdeal.Points
import proofs.«119741_j66924180407021_1_alg».proof.Proof.Gen.KernelIdeal.Frame
import proofs.«119741_j66924180407021_1_alg».proof.Proof.Gen.ReferenceIdeal
import proofs.«119741_j66924180407021_1_alg».proof.Proof.Gen.ReferenceIdeal.Run
import proofs.«119741_j66924180407021_1_alg».proof.Proof.Gen.ReferenceIdeal.Read
import proofs.«119741_j66924180407021_1_alg».proof.Proof.Gen.Pre_finite_inputs
import proofs.«119741_j66924180407021_1_alg».proof.Proof.KernelValue
import proofs.«119741_j66924180407021_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

/-- The first endpoint's embeddings, as the kernel's region finds them, are the other program's gather of the same table by the same indices. -/
theorem gatherA (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v8 : Cert.KernelIdeal.S500000x256.Idx → EReal)
      = Cert.ReferenceIdeal.Read.val_main_v8 (F := Ideal) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  show StableHlo.after Cert.KernelIdeal.Gen.hostOps0 (fun b => m (c, b)) (Proc.devRef .tc Cert.KernelIdeal.main_v8) = _
  after_results
  rfl

/-- The second endpoint's embeddings likewise. -/
theorem gatherB (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v17 : Cert.KernelIdeal.S500000x256.Idx → EReal)
      = Cert.ReferenceIdeal.Read.val_main_v17 (F := Ideal) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  show StableHlo.after Cert.KernelIdeal.Gen.hostOps0 (fun b => m (c, b)) (Proc.devRef .tc Cert.KernelIdeal.main_v17) = _
  after_results
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From arguments that agree the kernel ends at the blocked, negated-term form of the loss and the other program
    at the plain form, of the same gathered arrays and weights: one extended real. -/
theorem algebraic : Cert.algebraic_KernelIdeal_ReferenceIdeal := by
  intro m ρ m' ρ' _ hagree
  refine ⟨fun c => fun _ => Cert.KernelIdeal.LossValue.kloss m c, Cert.KernelIdeal.LossValue.run m ρ, ?_⟩
  refine (θ_run Cert.ReferenceIdeal.defs _ _).mono (fun _ h c => ⟨(h c).1.trans ?_, (h c).2⟩)
    (Cert.ReferenceIdeal.Value.run (F := Ideal) m' ρ')
  show _ = fun _ => Cert.KernelIdeal.LossValue.kloss m c
  rw [Cert.ReferenceIdeal.Read.val_main_v39_eq, Cert.ReferenceIdeal.RefValue.result_eq,
    (hagree c).2.2.1, (hagree c).2.2.2.1, (hagree c).2.2.2.2.1, (hagree c).2.2.2.2.2.1, (hagree c).2.2.2.2.2.2.1,
    (hagree c).2.2.2.2.2.2.2]
  unfold Cert.KernelIdeal.LossValue.kloss
  rw [gatherA m c, gatherB m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
